-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  shapeCasts_S1024x64_S1x1024x64 : S1024x64.ShapeCasts S1x1024x64
  shapeCasts_S64x2048x64_S4x16x2048x64 : S64x2048x64.ShapeCasts S4x16x2048x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .f32 = 32 ∨ (Rect.block (s := S64x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x2048x64.size a
  hwx0_3 : ∀ i : grid0.Coords, EltTy.bits .f32 = 32 ∨ (Rect.block (s := S64x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.AttnSpec.lean ====
/-
  Scaled dot-product attention on the extended reals, one output entry at a time.

  For one query row `qrow` (64 features), keys `K` and values `V` (2048 rows of 64 features each):
  the score of key row `j` is the inner product of `qrow` with `K j`, times 1/8; the row's maximum is taken
  over all 2048 scores, starting from -∞; each score's weight is the exponential of its distance below that
  maximum; the weights are divided by their sum; and entry `d` of the result is the weighted sum of column `d`
  of the values.  Nothing here needs the entries to be finite: the definitions are plain terms of the
  extended reals, and both programs compute exactly these terms.

  The same function is then stated over arrays: over three [64, 2048, 64] arrays (one attention problem per
  leading index), and over three [4, 16, 2048, 64] arrays (one per pair of leading indices).  Regrouping the
  two leading axes of extents 4 and 16 into one of extent 64 turns the second into the first.
-/
import Idealize.ShloMosaic.PureOps.Ideal
import Idealize.ShloMosaic.Lib.ValueIdx

noncomputable section

open scoped BigOperators

namespace Cert.Attention

open Idealize.ShloMosaic Idealize.ShloMosaic.ValueIdx

/-- The score of the query row against key row `j`: their inner product over the 64 features, times 1/8. -/
def score (qrow : Fin 64 → EReal) (K : Fin 2048 → Fin 64 → EReal) (j : Fin 2048) : EReal :=
  (∑ e : Fin 64, qrow e * K j e) * Ideal.ofBits .f32 0x3E000000#32

/-- The largest of the row's 2048 scores, the maximum taken from -∞. -/
def rowMax (qrow : Fin 64 → EReal) (K : Fin 2048 → Fin 64 → EReal) : EReal :=
  (Finset.univ : Finset (Fin 2048)).fold max (Ideal.ofBits .f32 0xFF800000#32) (score qrow K)

/-- The weight of key row `j`: the exponential of its score less the row's maximum. -/
def weight (qrow : Fin 64 → EReal) (K : Fin 2048 → Fin 64 → EReal) (j : Fin 2048) : EReal :=
  Ideal.exp (score qrow K j - rowMax qrow K)

/-- The sum of the row's weights. -/
def total (qrow : Fin 64 → EReal) (K : Fin 2048 → Fin 64 → EReal) : EReal :=
  ∑ j : Fin 2048, weight qrow K j

/-- Entry `d` of the attention output for the query row: the values' column `d` averaged with the normalized weights. -/
def rowAttn (qrow : Fin 64 → EReal) (K V : Fin 2048 → Fin 64 → EReal) (d : Fin 64) : EReal :=
  ∑ j : Fin 2048, Ideal.div (weight qrow K j) (total qrow K) * V j d

/-- The shape of the arrays the attention kernel works on: 64 problems of 2048 rows of 64 features. -/
abbrev S3 : Shape := ⟨3, ![64, 2048, 64]⟩
/-- The shape of the programs' arguments and result: 4 × 16 problems of 2048 rows of 64 features. -/
abbrev S4 : Shape := ⟨4, ![4, 16, 2048, 64]⟩

/-- Attention over [64, 2048, 64] arrays: entry (g, r, d) is row `r` of problem `g` against that problem's keys and values. -/
def attn3 (a0 a1 a2 : S3.Idx → EReal) : S3.Idx → EReal := fun i =>
  rowAttn (fun e => a0 (ix3 (i 0) (i 1) e)) (fun j e => a1 (ix3 (i 0) j e)) (fun j e => a2 (ix3 (i 0) j e)) (i 2)

/-- Attention over [4, 16, 2048, 64] arrays: entry (b, h, r, d) is row `r` of problem (b, h). -/
def attn4 (q k v : S4.Idx → EReal) : S4.Idx → EReal := fun i =>
  rowAttn (fun e => q (ix4 (i 0) (i 1) (i 2) e)) (fun j e => k (ix4 (i 0) (i 1) j e)) (fun j e => v (ix4 (i 0) (i 1) j e)) (i 3)

/-- A [4, 16, 2048, 64] array with its two leading axes regrouped into one of extent 64: problem `g` is problem (g / 16, g % 16). -/
def regroup {α : Type} (x : S4.Idx → α) : S3.Idx → α := fun i =>
  x (ix4 (⟨(i 0).val / 16, by have := (i 0).isLt; change (i 0).val < 64 at this; omega⟩ : Fin 4)
         (⟨(i 0).val % 16, Nat.mod_lt _ (by norm_num)⟩ : Fin 16) (i 1) (i 2))

theorem regroup_apply {α : Type} (x : S4.Idx → α) (b : Fin 4) (h : Fin 16) (r : Fin 2048) (e : Fin 64) :
    regroup x (ix3 (⟨b.val * 16 + h.val, by have := b.isLt; have := h.isLt; omega⟩ : Fin 64) r e) = x (ix4 b h r e) := by
  unfold regroup
  refine congrArg x (funext fun a => Fin.ext ?_)
  have hb := b.isLt; have hh := h.isLt
  match a with
  | ⟨0, _⟩ => show (b.val * 16 + h.val) / 16 = b.val; omega
  | ⟨1, _⟩ => show (b.val * 16 + h.val) % 16 = h.val; omega
  | ⟨2, _⟩ => rfl
  | ⟨3, _⟩ => rfl

/-- Attention of the regrouped arrays, at problem b·16 + h, is attention of the arrays at problem (b, h). -/
theorem attn3_regroup (q k v : S4.Idx → EReal) (b : Fin 4) (h : Fin 16) (r : Fin 2048) (d : Fin 64) :
    attn3 (regroup q) (regroup k) (regroup v) (ix3 (⟨b.val * 16 + h.val, by have := b.isLt; have := h.isLt; omega⟩ : Fin 64) r d)
      = attn4 q k v (ix4 b h r d) := by
  unfold attn3 attn4
  show rowAttn (fun e => regroup q (ix3 _ r e)) (fun j e => regroup k (ix3 _ j e)) (fun j e => regroup v (ix3 _ j e)) d
     = rowAttn (fun e => q (ix4 b h r e)) (fun j e => k (ix4 b h j e)) (fun j e => v (ix4 b h j e)) d
  simp only [regroup_apply]

end Cert.Attention

end
-- ==== Proof.RefValue.lean ====
/-
  The reference program computes attention.

  Read one operation at a time at an entry (b, h, r, j) of the [4, 16, 2048, 2048] score array, the reference's
  stages are the terms of the attention function: the batched product of queries and keys is the inner
  product over the 64 features; the broadcast constant is 1/8; the maximum over the last axis is the fold of
  `max` from -∞ over the row's 2048 scores, and taking the larger of -∞ and that maximum changes nothing, -∞
  being the least extended real; the sum over the last axis starts from 0, which adds nothing; and the last
  batched product sums the normalized weights against the values' column.
-/
import proofs.«114665_j730144440910_2_alg».proof.Proof.Gen.ReferenceIdeal.Read
import proofs.«114665_j730144440910_2_alg».proof.Proof.AttnSpec
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Attention

/-- The pattern 0xFF800000 is -∞, the least extended real. -/
theorem neg_inf_eq_bot : Ideal.ofBits .f32 0xFF800000#32 = (⊥ : EReal) := by
  simp [Ideal.ofBits, Ideal.ieee]

variable (q k v : (⟨S4x16x2048x64, .f32⟩ : BufTy).Contents (Elt Ideal))

/-- The scaled product of queries and keys, at (b, h, r, j), is the score of row r against key row j. -/
theorem score_eq (b : Fin 4) (h : Fin 16) (r j : Fin 2048) :
    val_main_v2 (F := Ideal) q k (ix4 b h r j)
      = score (fun e => q (ix4 b h r e)) (fun j e => k (ix4 b h j e)) j := by
  rw [val_main_v2_apply, val_main_v0_apply, val_main_v1_apply, val_main_cst_apply]
  have el : ∀ e : Fin 64, lidx_main_v0 (ix4 b h r j) e = ix4 b h r e := fun e => funext fun a => Fin.ext (by
    match a with
    | ⟨0, _⟩ => rfl
    | ⟨1, _⟩ => rfl
    | ⟨2, _⟩ => rfl
    | ⟨3, _⟩ => rfl)
  have er : ∀ e : Fin 64, ridx_main_v0 (ix4 b h r j) e = ix4 b h j e := fun e => funext fun a => Fin.ext (by
    match a with
    | ⟨0, _⟩ => rfl
    | ⟨1, _⟩ => rfl
    | ⟨2, _⟩ => rfl
    | ⟨3, _⟩ => rfl)
  simp only [el, er]
  rfl

/-- The reduction's shape fact in the form that names the inserted coordinate. -/
theorem reduces_last : S4x16x2048x2048.Reduces [3] S4x16x2048 := by decide

/-- The maximum over the last axis, at (b, h, r), is the row's maximum. -/
theorem reduce_max_eq (b : Fin 4) (h : Fin 16) (r : Fin 2048) :
    val_main_v3 (F := Ideal) q k (ix3 b h r)
      = rowMax (fun e => q (ix4 b h r e)) (fun j e => k (ix4 b h j e)) := by
  unfold val_main_v3
  rw [Host.reduce_eq_fold_single FloatOps.maximumf _ _ reducesTo_S4x16x2048x2048_S4x16x2048_d3 reduces_last h_S_]
  unfold rowMax
  show (Finset.univ : Finset (Fin 2048)).fold max (Ideal.ofBits .f32 0xFF800000#32)
      (fun j => val_main_v2 (F := Ideal) q k (reduces_last.lift (ix3 b h r) j)) = _
  refine Finset.fold_congr fun j _ => ?_
  have e : reduces_last.lift (ix3 b h r) j = ix4 b h r j := funext fun a => Fin.ext (by
    match a with
    | ⟨0, _⟩ => rfl
    | ⟨1, _⟩ => rfl
    | ⟨2, _⟩ => rfl
    | ⟨3, _⟩ => rfl)
  rw [e]
  exact score_eq q k b h r j

/-- The larger of -∞ and that maximum is the row's maximum. -/
theorem max_eq (b : Fin 4) (h : Fin 16) (r : Fin 2048) :
    val_main_v5 (F := Ideal) q k (ix3 b h r)
      = rowMax (fun e => q (ix4 b h r e)) (fun j e => k (ix4 b h j e)) := by
  rw [val_main_v5_apply, val_main_v4_apply, val_main_cst_1_apply, reduce_max_eq]
  show max (Ideal.ofBits .f32 0xFF800000#32) _ = _
  rw [neg_inf_eq_bot]
  exact max_eq_right bot_le

/-- The exponential of the score less the broadcast maximum, at (b, h, r, j), is the weight of key row j. -/
theorem weight_eq (b : Fin 4) (h : Fin 16) (r j : Fin 2048) :
    val_main_v9 (F := Ideal) q k (ix4 b h r j)
      = weight (fun e => q (ix4 b h r e)) (fun j e => k (ix4 b h j e)) j := by
  rw [val_main_v9_apply, val_main_v8_apply, val_main_v7_apply, val_main_v6_apply]
  have e : idx_main_v6 (idx_main_v7 (ix4 b h r j)) = ix3 b h r := funext fun a => Fin.ext (by
    match a with
    | ⟨0, _⟩ => rfl
    | ⟨1, _⟩ => rfl
    | ⟨2, _⟩ => rfl)
  rw [e, score_eq, max_eq]
  rfl

/-- The sum over the last axis, at (b, h, r), is the sum of the row's weights. -/
theorem total_eq (b : Fin 4) (h : Fin 16) (r : Fin 2048) :
    val_main_v10 (F := Ideal) q k (ix3 b h r)
      = total (fun e => q (ix4 b h r e)) (fun j e => k (ix4 b h j e)) := by
  rw [val_main_v10_apply, val_main_cst_2_apply]
  show Ideal.ofBits .f32 0x00000000#32 + _ = _
  rw [Ideal.ofBits_zero_f32, zero_add]
  unfold total
  refine Finset.sum_congr rfl fun j _ => ?_
  have e : idx_main_v10 (ix3 b h r) j = ix4 b h r j := funext fun a => Fin.ext (by
    match a with
    | ⟨0, _⟩ => rfl
    | ⟨1, _⟩ => rfl
    | ⟨2, _⟩ => rfl
    | ⟨3, _⟩ => rfl)
  rw [e, weight_eq]

/-- The quotient of the weights by their broadcast sum, at (b, h, r, j), is the normalized weight of key row j. -/
theorem normalized_eq (b : Fin 4) (h : Fin 16) (r j : Fin 2048) :
    val_main_v13 (F := Ideal) q k (ix4 b h r j)
      = Ideal.div (weight (fun e => q (ix4 b h r e)) (fun j e => k (ix4 b h j e)) j)
          (total (fun e => q (ix4 b h r e)) (fun j e => k (ix4 b h j e))) := by
  rw [val_main_v13_apply, val_main_v12_apply, val_main_v11_apply]
  have e : idx_main_v11 (idx_main_v12 (ix4 b h r j)) = ix3 b h r := funext fun a => Fin.ext (by
    match a with
    | ⟨0, _⟩ => rfl
    | ⟨1, _⟩ => rfl
    | ⟨2, _⟩ => rfl)
  rw [e, weight_eq, total_eq]
  rfl

/-- The reference's result is attention of its three arguments. -/
theorem result_eq : val_main_v14 (F := Ideal) q k v = attn4 q k v := by
  funext i
  obtain ⟨b, h, r, d, rfl⟩ : ∃ (b : Fin 4) (h : Fin 16) (r : Fin 2048) (d : Fin 64), i = ix4 b h r d :=
    ⟨i 0, i 1, i 2, i 3, eq_ix4 i⟩
  rw [val_main_v14_apply]
  unfold attn4 rowAttn
  refine Finset.sum_congr rfl fun j _ => ?_
  have el : lidx_main_v14 (ix4 b h r d) j = ix4 b h r j := funext fun a => Fin.ext (by
    match a with
    | ⟨0, _⟩ => rfl
    | ⟨1, _⟩ => rfl
    | ⟨2, _⟩ => rfl
    | ⟨3, _⟩ => rfl)
  have er : ridx_main_v14 (ix4 b h r d) j = ix4 b h j d := funext fun a => Fin.ext (by
    match a with
    | ⟨0, _⟩ => rfl
    | ⟨1, _⟩ => rfl
    | ⟨2, _⟩ => rfl
    | ⟨3, _⟩ => rfl)
  rw [el, er, normalized_eq]

end Cert.ReferenceIdeal.RefValue

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.Payload.lean ====
/-
  What the kernel body stores, entry by entry.

  The body loads a block of 1024 query rows and the whole 2048 rows of keys and of values of one attention
  problem, drops the blocks' leading unit axis, and computes: the product of the query rows with the transposed
  keys, scaled by 1/8; each row's maximum, kept as a column and repeated along the row; the exponential of the
  difference; each row's sum, kept and repeated the same way; the quotient; and the product with the values.
  On the extended reals a change of float format is the identity, a matrix product into a zero accumulator is
  the sum over the contracted axis, a row maximum from -∞ is the fold of `max` over the row and a row sum from 0
  is the sum over the row.  So entry (r, d) of what is stored is attention of query row r against the loaded
  keys and values, at feature d.
-/
import proofs.«114665_j730144440910_2_alg».proof.Proof.Gen.KernelIdeal.Skeleton
import proofs.«114665_j730144440910_2_alg».proof.Proof.AttnSpec
import proofs.«114665_j730144440910_2_alg».proof.Proof.LibRowOps
import proofs.«114665_j730144440910_2_alg».proof.Proof.LibRowMax
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx Cert.Attention

/-- The product of 1024 query rows with 2048 key rows, contracting the 64 features of both. -/
abbrev dQK : DotDims S1024x64 S2048x64 S1024x2048 := dot_S1024x64_S2048x64_S1024x2048_1_1_0_0_n_n
/-- The product of 1024 rows of 2048 weights with 2048 value rows, contracting the 2048 keys. -/
abbrev dPV : DotDims S1024x2048 S2048x64 S1024x64 := dot_S1024x2048_S2048x64_S1024x64_1_0_0_1_n_n

/-! ## The two matrix products, entry by entry -/

theorem dQK_lhs0 (i : S1024x2048.Idx) (c : dQK.contr.Idx) : (dQK.lhsIdx i c 0).val = (i 0).val := by
  unfold DotDims.lhsIdx
  rw [dif_neg (show ¬(0 : Fin S1024x64.rank) ∈ dQK.lhsBatch by decide), dif_pos (show (0 : Fin S1024x64.rank) ∈ dQK.lhsNonContracting by decide)]
  rfl
theorem dQK_lhs1 (i : S1024x2048.Idx) (c : dQK.contr.Idx) : (dQK.lhsIdx i c 1).val = (c ⟨0, by decide⟩).val :=
  dQK.lhsIdx_val_of_single rfl i c
theorem dQK_rhs0 (i : S1024x2048.Idx) (c : dQK.contr.Idx) : (dQK.rhsIdx i c 0).val = (i 1).val := by
  unfold DotDims.rhsIdx
  rw [dif_neg (show ¬(0 : Fin S2048x64.rank) ∈ dQK.rhsBatch by decide), dif_pos (show (0 : Fin S2048x64.rank) ∈ dQK.rhsNonContracting by decide)]
  rfl
theorem dQK_rhs1 (i : S1024x2048.Idx) (c : dQK.contr.Idx) : (dQK.rhsIdx i c 1).val = (c ⟨0, by decide⟩).val :=
  dQK.rhsIdx_val_of_single rfl i c

/-- Entry (p, j) of the queries times the transposed keys is the inner product of query row p and key row j. -/
theorem qk_apply (Q : FVec Ideal S1024x64 .bf16) (K : FVec Ideal S2048x64 .bf16) (p : Fin 1024) (j : Fin 2048) :
    matmul dQK none Q K (constant S1024x2048 .f32 0x00000000#32) (ix2 p j) = ∑ e : Fin 64, Q (ix2 p e) * K (ix2 j e) := by
  refine (Ideal.matmul_constant_zero_apply dQK none Q K (ix2 p j)).trans ?_
  rw [← Equiv.sum_comp (contrEquiv1 dQK 64 rfl rfl).symm]
  refine Finset.sum_congr rfl fun e _ => ?_
  have hk := contrEquiv1_symm_val dQK 64 rfl rfl e
  have el : dQK.lhsIdx (ix2 p j) ((contrEquiv1 dQK 64 rfl rfl).symm e) = ix2 p e := funext fun a => Fin.ext (by
    match a with
    | ⟨0, _⟩ => exact dQK_lhs0 _ _
    | ⟨1, _⟩ => exact (dQK_lhs1 _ _).trans hk)
  have er : dQK.rhsIdx (ix2 p j) ((contrEquiv1 dQK 64 rfl rfl).symm e) = ix2 j e := funext fun a => Fin.ext (by
    match a with
    | ⟨0, _⟩ => exact dQK_rhs0 _ _
    | ⟨1, _⟩ => exact (dQK_rhs1 _ _).trans hk)
  rw [el, er]

theorem dPV_lhs0 (i : S1024x64.Idx) (c : dPV.contr.Idx) : (dPV.lhsIdx i c 0).val = (i 0).val := by
  unfold DotDims.lhsIdx
  rw [dif_neg (show ¬(0 : Fin S1024x2048.rank) ∈ dPV.lhsBatch by decide), dif_pos (show (0 : Fin S1024x2048.rank) ∈ dPV.lhsNonContracting by decide)]
  rfl
theorem dPV_lhs1 (i : S1024x64.Idx) (c : dPV.contr.Idx) : (dPV.lhsIdx i c 1).val = (c ⟨0, by decide⟩).val :=
  dPV.lhsIdx_val_of_single rfl i c
theorem dPV_rhs0 (i : S1024x64.Idx) (c : dPV.contr.Idx) : (dPV.rhsIdx i c 0).val = (c ⟨0, by decide⟩).val :=
  dPV.rhsIdx_val_of_single rfl i c
theorem dPV_rhs1 (i : S1024x64.Idx) (c : dPV.contr.Idx) : (dPV.rhsIdx i c 1).val = (i 1).val := by
  unfold DotDims.rhsIdx
  rw [dif_neg (show ¬(1 : Fin S2048x64.rank) ∈ dPV.rhsBatch by decide), dif_pos (show (1 : Fin S2048x64.rank) ∈ dPV.rhsNonContracting by decide)]
  rfl

/-- Entry (p, d) of the weights times the values is the sum over the keys j of weight (p, j) times value (j, d). -/
theorem pv_apply (P : FVec Ideal S1024x2048 .bf16) (V : FVec Ideal S2048x64 .bf16) (p : Fin 1024) (d : Fin 64) :
    matmul dPV none P V (constant S1024x64 .f32 0x00000000#32) (ix2 p d) = ∑ j : Fin 2048, P (ix2 p j) * V (ix2 j d) := by
  refine (Ideal.matmul_constant_zero_apply dPV none P V (ix2 p d)).trans ?_
  rw [← Equiv.sum_comp (contrEquiv1 dPV 2048 rfl rfl).symm]
  refine Finset.sum_congr rfl fun j _ => ?_
  have hk := contrEquiv1_symm_val dPV 2048 rfl rfl j
  have el : dPV.lhsIdx (ix2 p d) ((contrEquiv1 dPV 2048 rfl rfl).symm j) = ix2 p j := funext fun a => Fin.ext (by
    match a with
    | ⟨0, _⟩ => exact dPV_lhs0 _ _
    | ⟨1, _⟩ => exact (dPV_lhs1 _ _).trans hk)
  have er : dPV.rhsIdx (ix2 p d) ((contrEquiv1 dPV 2048 rfl rfl).symm j) = ix2 j d := funext fun a => Fin.ext (by
    match a with
    | ⟨0, _⟩ => exact (dPV_rhs0 _ _).trans hk
    | ⟨1, _⟩ => exact dPV_rhs1 _ _)
  rw [el, er]

/-! ## The body's stages, named -/

/-- A loaded block of 1024 rows without its leading unit axis. -/
def rows1024 (x : Vec Ideal S1x1024x64 .f32) : FVec Ideal S1024x64 .bf16 :=
  truncf .bf16 (shapeCast S1024x64 x shapeCasts_S1x1024x64_S1024x64) bitsLt_bf16_f32
/-- A loaded block of 2048 rows without its leading unit axis. -/
def rows2048 (x : Vec Ideal S1x2048x64 .f32) : FVec Ideal S2048x64 .bf16 :=
  truncf .bf16 (shapeCast S2048x64 x shapeCasts_S1x2048x64_S2048x64) bitsLt_bf16_f32
/-- The scaled scores of the block's rows against all keys. -/
def scores (Q : FVec Ideal S1024x64 .bf16) (K : FVec Ideal S2048x64 .bf16) : FVec Ideal S1024x2048 .f32 :=
  mulf (matmul dQK none Q K (constant S1024x2048 .f32 0x00000000#32)) (broadcast S1024x2048 (Scalar.ofBits .f32 0x3E000000#32))
/-- Each row's maximum, repeated along the row. -/
def rowMaxes (S : FVec Ideal S1024x2048 .f32) : FVec Ideal S1024x2048 .f32 :=
  broadcastTo S1024x2048 (shapeCast S1024x1 (multiReduction .maximumf [1] S1024 S 0xFF800000#32 reduces_S1024x2048_S1024 (.inl rfl) rfl) shapeCasts_S1024_S1024x1) broadcasts_S1024x1_S1024x2048
/-- The weights: the exponential of each score less its row's maximum. -/
def weights (S : FVec Ideal S1024x2048 .f32) : FVec Ideal S1024x2048 .f32 :=
  exp (subf S (rowMaxes S))
/-- Each row's sum, repeated along the row. -/
def rowSums (E : FVec Ideal S1024x2048 .f32) : FVec Ideal S1024x2048 .f32 :=
  broadcastTo S1024x2048 (shapeCast S1024x1 (multiReduction .add [1] S1024 E 0x00000000#32 reduces_S1024x2048_S1024 (.inl rfl) rfl) shapeCasts_S1024_S1024x1) broadcasts_S1024x1_S1024x2048
/-- The weights divided by their row's sum. -/
def normalized (E : FVec Ideal S1024x2048 .f32) : FVec Ideal S1024x2048 .bf16 :=
  truncf .bf16 (divf E (rowSums E)) bitsLt_bf16_f32

/-- The stored value is these stages composed. -/
theorem payload_eq (x0 : Vec Ideal S1x1024x64 .f32) (x1 x2 : Vec Ideal S1x2048x64 .f32) :
    k0_pay1 (F := Ideal) x0 x1 x2
      = shapeCast S1x1024x64 (matmul dPV none (normalized (weights (scores (rows1024 x0) (rows2048 x1)))) (rows2048 x2)
          (constant S1024x64 .f32 0x00000000#32)) shapeCasts_S1024x64_S1x1024x64 := rfl

/-! ## Each stage at an entry -/

theorem rows1024_apply (x : Vec Ideal S1x1024x64 .f32) (r : Fin 1024) (e : Fin 64) :
    rows1024 x (ix2 r e) = x (ix3 (0 : Fin 1) r e) :=
  shapeCast_apply x shapeCasts_S1x1024x64_S1024x64 (ix2 r e) (ix3 (0 : Fin 1) r e) (by
    rw [Shape.rowMajor_val_three, Shape.rowMajor_val_two]
    show ((0 : ℕ) * 1024 + r.val) * 64 + e.val = r.val * 64 + e.val
    omega)

theorem rows2048_apply (x : Vec Ideal S1x2048x64 .f32) (j : Fin 2048) (e : Fin 64) :
    rows2048 x (ix2 j e) = x (ix3 (0 : Fin 1) j e) :=
  shapeCast_apply x shapeCasts_S1x2048x64_S2048x64 (ix2 j e) (ix3 (0 : Fin 1) j e) (by
    rw [Shape.rowMajor_val_three, Shape.rowMajor_val_two]
    show ((0 : ℕ) * 2048 + j.val) * 64 + e.val = j.val * 64 + e.val
    omega)

theorem scores_apply (Q : FVec Ideal S1024x64 .bf16) (K : FVec Ideal S2048x64 .bf16) (p : Fin 1024) (j : Fin 2048) :
    scores Q K (ix2 p j) = score (fun e => Q (ix2 p e)) (fun j e => K (ix2 j e)) j := by
  unfold scores score
  show matmul dQK none Q K (constant S1024x2048 .f32 0x00000000#32) (ix2 p j) * Ideal.ofBits .f32 0x3E000000#32 = _
  rw [qk_apply]

theorem rowMaxes_apply (S : FVec Ideal S1024x2048 .f32) (p : Fin 1024) (j : Fin 2048) :
    rowMaxes S (ix2 p j)
      = (Finset.univ : Finset (Fin 2048)).fold max (Ideal.ofBits .f32 0xFF800000#32) (fun j => S (ix2 p j)) :=
  (Cert.RowOps.column_repeated_apply _ shapeCasts_S1024_S1024x1 broadcasts_S1024x1_S1024x2048 p j).trans
    (Cert.RowMax.max_over_columns_apply S reduces_S1024x2048_S1024 (.inl rfl) rfl p)

theorem weights_apply (S : FVec Ideal S1024x2048 .f32) (p : Fin 1024) (j : Fin 2048) :
    weights S (ix2 p j)
      = Ideal.exp (S (ix2 p j) - (Finset.univ : Finset (Fin 2048)).fold max (Ideal.ofBits .f32 0xFF800000#32) (fun j => S (ix2 p j))) := by
  unfold weights
  show Ideal.exp (S (ix2 p j) - rowMaxes S (ix2 p j)) = _
  rw [rowMaxes_apply]

theorem rowSums_apply (E : FVec Ideal S1024x2048 .f32) (p : Fin 1024) (j : Fin 2048) :
    rowSums E (ix2 p j) = ∑ j : Fin 2048, E (ix2 p j) :=
  (Cert.RowOps.column_repeated_apply _ shapeCasts_S1024_S1024x1 broadcasts_S1024x1_S1024x2048 p j).trans
    (Cert.RowOps.sum_over_columns_apply E reduces_S1024x2048_S1024 (.inl rfl) rfl p)

theorem normalized_apply (E : FVec Ideal S1024x2048 .f32) (p : Fin 1024) (j : Fin 2048) :
    normalized E (ix2 p j) = Ideal.div (E (ix2 p j)) (∑ j : Fin 2048, E (ix2 p j)) := by
  unfold normalized
  show Ideal.div (E (ix2 p j)) (rowSums E (ix2 p j)) = _
  rw [rowSums_apply]

/-! ## The stored value at an entry -/

/-- The scores of the loaded blocks: row r against key row j, read off the blocks themselves. -/
theorem block_score (x0 : Vec Ideal S1x1024x64 .f32) (x1 : Vec Ideal S1x2048x64 .f32) (r : Fin 1024) (j : Fin 2048) :
    scores (rows1024 x0) (rows2048 x1) (ix2 r j)
      = score (fun e => x0 (ix3 (0 : Fin 1) r e)) (fun j e => x1 (ix3 (0 : Fin 1) j e)) j := by
  rw [scores_apply]
  simp only [rows1024_apply, rows2048_apply]

/-- The weights of the loaded blocks. -/
theorem block_weight (x0 : Vec Ideal S1x1024x64 .f32) (x1 : Vec Ideal S1x2048x64 .f32) (r : Fin 1024) (j : Fin 2048) :
    weights (scores (rows1024 x0) (rows2048 x1)) (ix2 r j)
      = weight (fun e => x0 (ix3 (0 : Fin 1) r e)) (fun j e => x1 (ix3 (0 : Fin 1) j e)) j := by
  rw [weights_apply]
  simp only [block_score]
  rfl

/-- Entry (r, d) of what the body stores is attention of query row r of the first block against the keys of the second
    and the values of the third, at feature d. -/
theorem payload_apply (x0 : Vec Ideal S1x1024x64 .f32) (x1 x2 : Vec Ideal S1x2048x64 .f32) (z : Fin 1) (r : Fin 1024) (d : Fin 64) :
    k0_pay1 (F := Ideal) x0 x1 x2 (ix3 z r d)
      = rowAttn (fun e => x0 (ix3 (0 : Fin 1) r e)) (fun j e => x1 (ix3 (0 : Fin 1) j e)) (fun j e => x2 (ix3 (0 : Fin 1) j e)) d := by
  rw [payload_eq]
  refine (shapeCast_apply _ shapeCasts_S1024x64_S1x1024x64 (ix3 z r d) (ix2 r d) (by
    rw [Shape.rowMajor_val_three, Shape.rowMajor_val_two]
    show r.val * 64 + d.val = (z.val * 1024 + r.val) * 64 + d.val
    have := z.isLt
    omega)).trans ?_
  refine (pv_apply _ _ r d).trans ?_
  unfold rowAttn total
  refine Finset.sum_congr rfl fun j _ => ?_
  rw [normalized_apply, rows2048_apply]
  simp only [block_weight]

/-- The same, for blocks that are rows of three [64, 2048, 64] arrays: if the first block's row (y 1) is row (i 1) of
    problem (i 0) of the first array, the second and third blocks are the rows of problem (i 0) of the second and third
    arrays, and feature (y 2) is feature (i 2), then entry y of what the body stores is attention of the three arrays
    at i. -/
theorem block_entry_eq (A0 A1 A2 : S3.Idx → EReal) (x0 : Vec Ideal S1x1024x64 .f32) (x1 x2 : Vec Ideal S1x2048x64 .f32)
    (i : S3.Idx) (y : S1x1024x64.Idx)
    (h0 : ∀ e : Fin 64, x0 (ix3 (0 : Fin 1) (y 1) e) = A0 (ix3 (i 0) (i 1) e))
    (h1 : ∀ (j : Fin 2048) (e : Fin 64), x1 (ix3 (0 : Fin 1) j e) = A1 (ix3 (i 0) j e))
    (h2 : ∀ (j : Fin 2048) (e : Fin 64), x2 (ix3 (0 : Fin 1) j e) = A2 (ix3 (i 0) j e))
    (hd : (y 2).val = (i 2).val) :
    k0_pay1 (F := Ideal) x0 x1 x2 y = attn3 A0 A1 A2 i := by
  refine (congrArg (k0_pay1 (F := Ideal) x0 x1 x2) (eq_ix3 y)).trans ?_
  refine (payload_apply x0 x1 x2 (y 0) (y 1) (y 2)).trans ?_
  unfold attn3
  simp only [h0, h1, h2]
  exact congrArg _ (Fin.ext hd)

end Cert.KernelIdeal.Payload

end
-- ==== Proof.Blocks.lean ====
/-
  From blocks to the array.

  The grid has 64 × 2 points; point (g, s) reads rows 1024·s … 1024·s + 1023 of problem g of the queries and all 2048
  rows of problem g of the keys and of the values, and writes back the same rows of problem g of the output.  The
  entry the body stores for row r of its block is attention of that query row against the problem's keys and
  values, so what a point writes back is its block of ONE function of the three arrays the call finds: attention
  over [64, 2048, 64] arrays.  Every row of every problem lies in exactly the block of point (g, r / 1024), so the
  output array ends at that function everywhere.
-/
import proofs.«114665_j730144440910_2_alg».proof.Proof.Gen.KernelIdeal.Frame
import proofs.«114665_j730144440910_2_alg».proof.Proof.Payload
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)
open Cert.Attention

variable (m : (ℓ : Loc nD τ sig) → Buf (Elt Ideal) ℓ)

theorem offsets_zero : (![0, 0, 0] : Fin 3 → Nat) = fun _ => 0 := funext fun a => by fin_cases a <;> rfl

/-- The block indices, decided over the 128 points: queries and output move together over problems and row
    blocks; keys and values follow the problem only; no window is split along the features. -/
theorem block_indices : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 :=
  (by decide +kernel : ∀ t : Fin grid0.N, _)

/-- Every (problem, row block) pair is some point's output block. -/
theorem block_of_pair : ∀ (g : Fin 64) (s : Fin 2), ∃ t : Fin cfg0.N, win0_3.index t = ![g.val, s.val, 0] :=
  (by decide +kernel : ∀ (g : Fin 64) (s : Fin 2), ∃ t : Fin grid0.N, win0_3.index t = ![g.val, s.val, 0])

/-- What point `t` writes back is its block of attention of the three arrays the call finds. -/
theorem flushed_eq (c : Dev nD) (t : Fin cfg0.N) :
    (dats m 0 c).flushed 3 t
      = ((cfg0.win 3).blk t).view.read (Elt Ideal) (attn3 (V m c main_v0) (V m c main_v1) (V m c main_v2)) := by
  show (cfg0.win 3).cut (grid0.coords t) ((dats m 0 c).after 3 t) = _
  rw [after0_3]
  unfold out0_3
  rw [View.canon_unit_zero offsets_zero]
  simp only [View.ld_unit_zero (S := S1x1024x64) offsets_zero, View.ld_unit_zero (S := S1x2048x64) offsets_zero]
  obtain ⟨a00, a01, a02, a10, a11, a12, a20, a21, a22, a32⟩ := block_indices t
  funext y
  show k0_pay1 (F := Ideal) (iblk m c 0 t) (iblk m c 1 t) (iblk m c 2 t) y
      = attn3 (V m c main_v0) (V m c main_v1) (V m c main_v2) (((cfg0.win 3).blk t).view.emb y)
  have hy0 : (y 0).val < 1 := (y 0).isLt
  refine Cert.KernelIdeal.Payload.block_entry_eq (V m c main_v0) (V m c main_v1) (V m c main_v2)
    (iblk m c 0 t) (iblk m c 1 t) (iblk m c 2 t) (((cfg0.win 3).blk t).view.emb y) y ?_ ?_ ?_ ?_
  · intro e
    show V m c main_v0 (((cfg0.win 0).blk t).view.emb (ix3 (0 : Fin 1) (y 1) e)) = _
    refine congrArg (V m c main_v0) (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 1024 + 1 * (y 1).val = win0_3.index t (1 : Fin 3) * 1024 + 1 * (y 1).val; omega
    | ⟨2, _⟩ => show win0_0.index t (2 : Fin 3) * 64 + 1 * e.val = e.val; omega
  · intro j e
    show V m c main_v1 (((cfg0.win 1).blk t).view.emb (ix3 (0 : Fin 1) j e)) = _
    refine congrArg (V m c main_v1) (funext fun a => Fin.ext ?_)
    match a with
    | ⟨0, _⟩ => show win0_1.index t (0 : Fin 3) * 1 + 1 * 0 = win0_3.index t (0 : Fin 3) * 1 + 1 * (y 0).val; omega
    | ⟨1, _⟩ => show win0_1.index t (1 : Fin 3) * 2048 + 1 * j.val = j.val; omega
    | ⟨2, _⟩ => show win0_1.index t (2 : Fin 3) * 64 + 1 * e.val = e.val; omega
  · intro j e
    show V m c main_v2 (((cfg0.win 2).blk t).view.emb (ix3 (0 : Fin 1) j e)) = _
    refine congrArg (V m c main_v2) (funext fun a => Fin.ext ?_)
    match a with
    | ⟨0, _⟩ => show win0_2.index t (0 : Fin 3) * 1 + 1 * 0 = win0_3.index t (0 : Fin 3) * 1 + 1 * (y 0).val; omega
    | ⟨1, _⟩ => show win0_2.index t (1 : Fin 3) * 2048 + 1 * j.val = j.val; omega
    | ⟨2, _⟩ => show win0_2.index t (2 : Fin 3) * 64 + 1 * e.val = e.val; omega
  · show (y 2).val = win0_3.index t (2 : Fin 3) * 64 + 1 * (y 2).val
    omega

/-- An index of the output array is in point `t`'s block iff each coordinate is in the block's range on its axis. -/
theorem mem_block (t : Fin cfg0.N) (i : S64x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v3).slice (win0_3.rect t)).set ↔ _
  rw [View.set_slice_whole, Rect.mem_set_unit]
  exact Iff.rfl

/-- Every index of the output array is in the block of the point of its problem and its row's block of 1024. -/
theorem covered (i : S64x2048x64.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht⟩ := block_of_pair ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The output array after the call: attention of the three arrays the call finds. -/
theorem output_array (c : Dev nD) :
    (dats m 0 c).arrAt 3 cfg0.N = attn3 (V m c main_v0) (V m c main_v1) (V m c main_v2) :=
  (dats m 0 c).arrAt_eq_of_cover 3 (attn3 (V m c main_v0) (V m c main_v1) (V m c main_v2))
    (fun t _ => flushed_eq m c t) covered

end Cert.KernelIdeal.Blocks

end
-- ==== Proof.Host.lean ====
/-
  The host program around the call.

  Before the call each [4, 16, 2048, 64] argument is reshaped to [64, 2048, 64]: problem (b, h) becomes problem
  16·b + h, rows and features as they are.  After the call the [64, 2048, 64] output is reshaped back.  A reshape
  keeps the row-major position of every entry, so the arrays the call finds are the arguments with their two
  leading axes regrouped, and entry (b, h, r, d) of the result is entry (16·b + h, r, d) of the call's output: attention
  of the regrouped arguments at problem 16·b + h, which is attention of the arguments at problem (b, h).
-/
import proofs.«114665_j730144440910_2_alg».proof.Proof.Gen.KernelIdeal.Frame
import proofs.«114665_j730144440910_2_alg».proof.Proof.Blocks
import Idealize.ShloMosaic.Lib.Pipeline.Value
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)
open Cert.Attention

/-- A reshape from [4, 16, 2048, 64] to [64, 2048, 64] regroups the two leading axes. -/
theorem reshape_regroup {α : Type} (x : S4.Idx → α) (hc : S4.ShapeCasts S3) (i : S3.Idx) :
    shapeCast S3 x hc i = regroup x i := by
  unfold regroup
  refine shapeCast_apply x hc i _ ?_
  rw [Shape.rowMajor_val_four, Shape.rowMajor_val_three]
  show (((i 0).val / 16 * 16 + (i 0).val % 16) * 2048 + (i 1).val) * 64 + (i 2).val
      = ((i 0).val * 2048 + (i 1).val) * 64 + (i 2).val
  have := Nat.div_add_mod (i 0).val 16
  omega

/-- A reshape from [64, 2048, 64] to [4, 16, 2048, 64] reads entry (b, h, r, d) at (16·b + h, r, d). -/
theorem reshape_split {α : Type} (X : S3.Idx → α) (hc : S3.ShapeCasts S4) (b : Fin 4) (h : Fin 16) (r : Fin 2048) (d : Fin 64) :
    shapeCast S4 X hc (ix4 b h r d)
      = X (ix3 (⟨b.val * 16 + h.val, by have := b.isLt; have := h.isLt; omega⟩ : Fin 64) r d) := by
  refine shapeCast_apply X hc (ix4 b h r d) _ ?_
  rw [Shape.rowMajor_val_four, Shape.rowMajor_val_three]
  rfl

variable (m : (ℓ : Loc nD τ sig) → Buf (Elt Ideal) ℓ) (ρ : Dev nD → PrngReg)

/-- The first array the call finds is the first argument, regrouped. -/
theorem found_q (c : Dev nD) :
    (V m c main_v0 : S64x2048x64.Idx → EReal) = regroup (m ((c : Thread nD τ).loc main_arg0)) := by
  have e : (V m c main_v0 : S64x2048x64.Idx → EReal)
      = shapeCast S64x2048x64 (m ((c : Thread nD τ).loc main_arg0)) shapeCasts_S4x16x2048x64_S64x2048x64 := by
    show StableHlo.after hostOps0 (fun b => m (c, b)) (Proc.devRef .tc main_v0) = _
    after_results
    rfl
  rw [e]
  exact funext fun i => reshape_regroup _ _ i

/-- The second array the call finds is the second argument, regrouped. -/
theorem found_k (c : Dev nD) :
    (V m c main_v1 : S64x2048x64.Idx → EReal) = regroup (m ((c : Thread nD τ).loc main_arg1)) := by
  have e : (V m c main_v1 : S64x2048x64.Idx → EReal)
      = shapeCast S64x2048x64 (m ((c : Thread nD τ).loc main_arg1)) shapeCasts_S4x16x2048x64_S64x2048x64 := by
    show StableHlo.after hostOps0 (fun b => m (c, b)) (Proc.devRef .tc main_v1) = _
    after_results
    rfl
  rw [e]
  exact funext fun i => reshape_regroup _ _ i

/-- The third array the call finds is the third argument, regrouped. -/
theorem found_v (c : Dev nD) :
    (V m c main_v2 : S64x2048x64.Idx → EReal) = regroup (m ((c : Thread nD τ).loc main_arg2)) := by
  have e : (V m c main_v2 : S64x2048x64.Idx → EReal)
      = shapeCast S64x2048x64 (m ((c : Thread nD τ).loc main_arg2)) shapeCasts_S4x16x2048x64_S64x2048x64 := by
    show StableHlo.after hostOps0 (fun b => m (c, b)) (Proc.devRef .tc main_v2) = _
    after_results
    rfl
  rw [e]
  exact funext fun i => reshape_regroup _ _ i

/-- What the call leaves in its output array, read where the lines after the call read it. -/
theorem left_by_call (c : Dev nD) :
    Pipeline.withArrays spec0 c (V0 m c) (fun w => (dats m 0 c).arrAt w cfg0.N) (Proc.devRef .tc main_v3)
      = attn3 (V m c main_v0) (V m c main_v1) (V m c main_v2) :=
  (Pipeline.withArrays_arr spec0 launch0.win.arr_inj c _ _ 3).trans (Cert.KernelIdeal.Blocks.output_array m c)

/-- The program's result: attention of its three arguments. -/
theorem result (c : Dev nD) :
    (Pipeline.afterTail₀ cfgs (dats m) 0 (V0 m) [hostOps1] c main_v4 : S4x16x2048x64.Idx → EReal)
      = attn4 (m ((c : Thread nD τ).loc main_arg0)) (m ((c : Thread nD τ).loc main_arg1)) (m ((c : Thread nD τ).loc main_arg2)) := by
  have e : (Pipeline.afterTail₀ cfgs (dats m) 0 (V0 m) [hostOps1] c main_v4 : S4x16x2048x64.Idx → EReal)
      = shapeCast S4x16x2048x64
          (Pipeline.withArrays spec0 c (V0 m c) (fun w => (dats m 0 c).arrAt w cfg0.N) (Proc.devRef .tc main_v3))
          shapeCasts_S64x2048x64_S4x16x2048x64 := by
    unfold Pipeline.afterTail₀
    show StableHlo.after hostOps1 _ (Proc.devRef .tc main_v4) = _
    after_results
    rfl
  rw [e, left_by_call, found_q, found_k, found_v]
  funext i
  obtain ⟨b, h, r, d, rfl⟩ : ∃ (b : Fin 4) (h : Fin 16) (r : Fin 2048) (d : Fin 64), i = ix4 b h r d :=
    ⟨i 0, i 1, i 2, i 3, eq_ix4 i⟩
  exact (reshape_split _ _ b h r d).trans (attn3_regroup _ _ _ b h r d)

/-- The kernel program's run, read: every weakly fair execution terminates with the result at attention of the
    arguments and the arguments unchanged. -/
theorem run : θ_run defs (onTc (τ := τ) (main (F := Ideal))) ⟨m, fun _ => 0, ρ⟩ fun r => ∀ c : Dev nD,
      r.2.mem ((c.tc : Thread nD τ).loc main_v4)
        = attn4 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Host

end
-- ==== Proof.lean ====
/-
  The kernel computes scaled dot-product attention, and so does its reference.

  Both programs take queries, keys and values of shape [4, 16, 2048, 64].  For every problem (b, h) and every query
  row r they form the 2048 scores of that row against the problem's key rows (inner products over the 64 features,
  times 1/8), take the scores' maximum, weigh each key row by the exponential of its score less the maximum, divide
  the weights by their sum, and average the value rows with them.  The reference does this in one sweep over the
  four-axis arrays.  The kernel regroups the two leading axes into 64 problems, works through them 1024 query rows
  at a time on a 64 × 2 grid with the keys and values of the problem held whole, and regroups the result back.  On
  the extended reals, where a change of float format is the identity, the two are the same function of the
  arguments, entry by entry (Proof/AttnSpec.lean states it): a different tiling and a different order of the same
  sums and the same maxima, and one extra comparison with -∞ in the reference that changes nothing.  No entry needs
  to be finite for this: the two sides are the same terms, so the finiteness of the inputs is never used.

  Proof/RefValue.lean reads the reference's operations as that function; Proof/Payload.lean reads what the kernel
  body stores; Proof/Blocks.lean puts the blocks together into the call's output array; Proof/Host.lean reads the
  reshapes around the call.  The kernel's idealization rewrote no operation, so it preserves the kernel trivially.
-/
import proofs.«114665_j730144440910_2_alg».proof.Defs
import proofs.«114665_j730144440910_2_alg».proof.Proof.Gen.Kernel
import proofs.«114665_j730144440910_2_alg».proof.Proof.Gen.Kernel.Skeleton
import proofs.«114665_j730144440910_2_alg».proof.Proof.Gen.Kernel.Launch
import proofs.«114665_j730144440910_2_alg».proof.Proof.Gen.Kernel.Points
import proofs.«114665_j730144440910_2_alg».proof.Proof.Gen.Kernel.Frame
import proofs.«114665_j730144440910_2_alg».proof.Proof.Gen.KernelIdeal
import proofs.«114665_j730144440910_2_alg».proof.Proof.Gen.KernelIdeal.Skeleton
import proofs.«114665_j730144440910_2_alg».proof.Proof.Gen.KernelIdeal.Launch
import proofs.«114665_j730144440910_2_alg».proof.Proof.Gen.KernelIdeal.Points
import proofs.«114665_j730144440910_2_alg».proof.Proof.Gen.KernelIdeal.Frame
import proofs.«114665_j730144440910_2_alg».proof.Proof.Gen.ReferenceIdeal
import proofs.«114665_j730144440910_2_alg».proof.Proof.Gen.ReferenceIdeal.Run
import proofs.«114665_j730144440910_2_alg».proof.Proof.Gen.ReferenceIdeal.Read
import proofs.«114665_j730144440910_2_alg».proof.Proof.Gen.Pre_finite_inputs
import proofs.«114665_j730144440910_2_alg».proof.Proof.AttnSpec
import proofs.«114665_j730144440910_2_alg».proof.Proof.RefValue
import proofs.«114665_j730144440910_2_alg».proof.Proof.Host
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, the idealized kernel and the idealized reference both end with the
    result at attention of the arguments. -/
theorem algebraic : Cert.algebraic_KernelIdeal_ReferenceIdeal := by
  intro m ρ m' ρ' _ hagree
  refine ⟨fun c => Cert.Attention.attn4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Host.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
